-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x128 : Shape := ⟨2, ![2097152, 128]⟩
abbrev S2x2097152 : Shape := ⟨2, ![2, 2097152]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S2097152x128 : S_.BroadcastsInDim S2097152x128 (![] : Fin 0 → Fin S2097152x128.rank)
  reducesTo_S2097152x128_S_d0_1 : S2097152x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2097152x128 .f32) (main_arg1 : IVec S2x2097152 32) (main_arg2 : FVec F S128x512 .f32) (main_arg3 : FVec F S512 .f32) (main_arg4 : FVec F S512x128 .f32) (main_arg5 : FVec F S128 .f32) : IVec S_ 1 :=
  let main_v0 : FVec F S2097152x128 .f32 := Host.absf main_arg0
  let main_cst : FVec F S_ .f32 := constant S_ .f32 0x7F800000#32
  let main_v1 : FVec F S2097152x128 .f32 := broadcastInDim S2097152x128 ![] bcast_S_S2097152x128 main_cst
  let main_v2 : IVec S2097152x128 1 := cmpf .olt main_v0 main_v1
  let main_c : IVec S_ 1 := constantI S_ 1 1#1
  let main_v3 : IVec S_ 1 := (fun x v => Host.reduce IntOp.andi x v reducesTo_S2097152x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S2097152x128 : Shape := ⟨2, ![2097152, 128]⟩
abbrev S2x2097152 : Shape := ⟨2, ![2, 2097152]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x2097152 : Shape := ⟨2, ![1, 2097152]⟩
abbrev S2097152 : Shape := ⟨1, ![2097152]⟩
abbrev S_ : Shape := ⟨0, ![]⟩
abbrev S131072x128 : Shape := ⟨2, ![131072, 128]⟩
abbrev S2097152x1 : Shape := ⟨2, ![2097152, 1]⟩
abbrev S131072 : Shape := ⟨1, ![131072]⟩
abbrev S131072x1 : Shape := ⟨2, ![131072, 1]⟩
abbrev S1x512 : Shape := ⟨2, ![1, 512]⟩
abbrev S1x128 : Shape := ⟨2, ![1, 128]⟩
abbrev S2048x128 : Shape := ⟨2, ![2048, 128]⟩
abbrev S2048x512 : Shape := ⟨2, ![2048, 512]⟩

abbrev nBuf : Space → Nat
  | .hbm => 30
  | .vmem => 8
  | .smem => 0
  | _ => 0

abbrev bufTy : (tb : Table) → Fin (tcTables nBuf tb) → BufTy
  | .hbm, ⟨0, _⟩ => ⟨S2097152x128, .f32⟩
  | .hbm, ⟨1, _⟩ => ⟨S2x2097152, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S1x2097152, .i32⟩
  | .hbm, ⟨7, _⟩ => ⟨S2097152, .i32⟩
  | .hbm, ⟨8, _⟩ => ⟨S_, .f32⟩
  | .hbm, ⟨9, _⟩ => ⟨S131072x128, .f32⟩
  | .hbm, ⟨10, _⟩ => ⟨S2097152x1, .i32⟩
  | .hbm, ⟨11, _⟩ => ⟨S131072x128, .f32⟩
  | .hbm, ⟨12, _⟩ => ⟨S_, .f32⟩
  | .hbm, ⟨13, _⟩ => ⟨S2097152, .f32⟩
  | .hbm, ⟨14, _⟩ => ⟨S_, .f32⟩
  | .hbm, ⟨15, _⟩ => ⟨S131072, .f32⟩
  | .hbm, ⟨16, _⟩ => ⟨S2097152x1, .i32⟩
  | .hbm, ⟨17, _⟩ => ⟨S131072, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S_, .f32⟩
  | .hbm, ⟨22, _⟩ => ⟨S131072, .f32⟩
  | .hbm, ⟨23, _⟩ => ⟨S131072, .f32⟩
  | .hbm, ⟨24, _⟩ => ⟨S131072x1, .f32⟩
  | .hbm, ⟨25, _⟩ => ⟨S131072x128, .f32⟩
  | .hbm, ⟨26, _⟩ => ⟨S131072x128, .f32⟩
  | .hbm, ⟨27, _⟩ => ⟨S1x512, .f32⟩
  | .hbm, ⟨28, _⟩ => ⟨S1x128, .f32⟩
  | .hbm, ⟨29, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S128x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S2097152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x2097152_S1x2097152_1_0 : S2x2097152.Slices ![1, 0] S1x2097152
  shapeCasts_S1x2097152_S2097152 : S1x2097152.ShapeCasts S2097152
  bcast_S_S131072x128 : S_.BroadcastsInDim S131072x128 (![] : Fin 0 → Fin S131072x128.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S512_S1x512 : S512.ShapeCasts S1x512
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  scatter_S131072x128_S2097152x1_S2097152x128_1_0_0_1_wf : ScatterDims.WF S131072x128 S2097152x1 S2097152x128 [1] [0] [0] 1
  scatter_S131072_S2097152x1_S2097152_n_0_0_1_wf : ScatterDims.WF S131072 S2097152x1 S2097152 [] [0] [0] 1
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)

variable [Facts₀]

def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v15) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x128 : Shape := ⟨2, ![2097152, 128]⟩
abbrev S2x2097152 : Shape := ⟨2, ![2, 2097152]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x2097152 : Shape := ⟨2, ![1, 2097152]⟩
abbrev S2097152 : Shape := ⟨1, ![2097152]⟩
abbrev S_ : Shape := ⟨0, ![]⟩
abbrev S131072x128 : Shape := ⟨2, ![131072, 128]⟩
abbrev S2097152x1 : Shape := ⟨2, ![2097152, 1]⟩
abbrev S131072 : Shape := ⟨1, ![131072]⟩
abbrev S131072x1 : Shape := ⟨2, ![131072, 1]⟩
abbrev S131072x512 : Shape := ⟨2, ![131072, 512]⟩
abbrev S1x512 : Shape := ⟨2, ![1, 512]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S2097152x128, .f32⟩
  | .hbm, ⟨1, _⟩ => ⟨S2x2097152, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S1x2097152, .i32⟩
  | .hbm, ⟨7, _⟩ => ⟨S2097152, .i32⟩
  | .hbm, ⟨8, _⟩ => ⟨S_, .f32⟩
  | .hbm, ⟨9, _⟩ => ⟨S131072x128, .f32⟩
  | .hbm, ⟨10, _⟩ => ⟨S2097152x1, .i32⟩
  | .hbm, ⟨11, _⟩ => ⟨S131072x128, .f32⟩
  | .hbm, ⟨12, _⟩ => ⟨S_, .f32⟩
  | .hbm, ⟨13, _⟩ => ⟨S2097152, .f32⟩
  | .hbm, ⟨14, _⟩ => ⟨S_, .f32⟩
  | .hbm, ⟨15, _⟩ => ⟨S131072, .f32⟩
  | .hbm, ⟨16, _⟩ => ⟨S2097152x1, .i32⟩
  | .hbm, ⟨17, _⟩ => ⟨S131072, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S131072x1, .f32⟩
  | .hbm, ⟨22, _⟩ => ⟨S131072x128, .f32⟩
  | .hbm, ⟨23, _⟩ => ⟨S131072x128, .f32⟩
  | .hbm, ⟨24, _⟩ => ⟨S131072x512, .f32⟩
  | .hbm, ⟨25, _⟩ => ⟨S1x512, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072x512, .f32⟩
  | .hbm, ⟨30, _⟩ => ⟨S131072x512, .f32⟩
  | .hbm, ⟨31, _⟩ => ⟨S131072x128, .f32⟩
  | .hbm, ⟨32, _⟩ => ⟨S1x128, .f32⟩
  | .hbm, ⟨33, _⟩ => ⟨S131072x128, .f32⟩
  | .hbm, ⟨34, _⟩ => ⟨S131072x128, .f32⟩
  | _, _ => ⟨S2097152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  slices_S2x2097152_S1x2097152_1_0 : S2x2097152.Slices ![1, 0] S1x2097152
  shapeCasts_S1x2097152_S2097152 : S1x2097152.ShapeCasts S2097152
  bcast_S_S131072x128 : S_.BroadcastsInDim S131072x128 (![] : Fin 0 → Fin S131072x128.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  scatter_S131072x128_S2097152x1_S2097152x128_1_0_0_1_wf : ScatterDims.WF S131072x128 S2097152x1 S2097152x128 [1] [0] [0] 1
  scatter_S131072_S2097152x1_S2097152_n_0_0_1_wf : ScatterDims.WF S131072 S2097152x1 S2097152 [] [0] [0] 1
  dot_S131072x128_S128x512_S131072x512_1_0_0_1_n_n_wf : DotDims.WF S131072x128 S128x512 S131072x512 [1] [0] [0] [1] [] []
  dot_S131072x512_S512x128_S131072x128_1_0_0_1_n_n_wf : DotDims.WF S131072x512 S512x128 S131072x128 [1] [0] [0] [1] [] []

variable [Facts₀]

def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf

class Facts : Prop extends Facts₀ where

variable [Facts]
-- ==== Proof.Mlp.lean ====
/-
  The mathematics both programs compute, stated once over the extended reals.

  A hyperedge row `r` first gets its mean feature vector: the accumulated sum `S r j` divided by the
  (clamped) count `C r`.  The row is then pushed through two dense layers,
      h k   = max (∑ j, mean j * W1 j k + b1 k) z          (z the zero word)
      out q = ∑ k, h k * W2 k q + b2 q.
  `layer2` is that function of ONE row; `out` applies it to every row of the mean array.

  The two programs differ only in how the mean is written: one multiplies the sum by the reciprocal
  `1 / c`, the other divides by `c`.  On the extended reals a quotient by a nonzero `c` IS the product
  with `c⁻¹`, and `1 * c⁻¹ = c⁻¹`, so the two agree as soon as `c ≠ 0` — which holds because
  `c = max cnt 1 ≥ 1` (`mul_recip_eq_div`).  No finiteness of the inputs is needed.
-/
import Idealize.ShloMosaic.PureOps.Ideal
import Idealize.ShloMosaic.PureOps.Ideal.Laws
import Idealize.ShloMosaic.PureOps.IdealRules
import Idealize.ShloMosaic.Lib.ValueIdx

noncomputable section

namespace Cert.Mlp

open Idealize.ShloMosaic Idealize.ShloMosaic.ValueIdx

/-- An `[a, b]` matrix of extended reals, and a vector of `a` of them. -/
abbrev Mat (a b : Nat) : Type := (⟨2, ![a, b]⟩ : Shape).Idx → EReal
abbrev Col (a : Nat) : Type := (⟨1, ![a]⟩ : Shape).Idx → EReal

/-- The f32 word of `1.0` denotes the extended real `1`. -/
theorem one_word : Ideal.ofBits .f32 0x3F800000#32 = 1 := IdealRules.sign_bit.ideal_onePat .f32

/-- One row `x` (128 features) through Linear(128→512), the clamp at `z`, and Linear(512→128), read at output column `q`. -/
def layer2 (z : EReal) (x : Fin 128 → EReal) (W1 : Mat 128 512) (b1 : Fin 512 → EReal) (W2 : Mat 512 128)
    (b2 : Fin 128 → EReal) (q : Fin 128) : EReal :=
  (∑ k : Fin 512, max ((∑ j : Fin 128, x j * W1 (ix2 j k)) + b1 k) z * W2 (ix2 k q)) + b2 q

/-- The clamped count of a row: `max cnt 1`, with `1` spelt as its f32 word. -/
def clamp (cnt : Col 131072) : Col 131072 := fun r => max (cnt r) (Ideal.ofBits .f32 0x3F800000#32)

/-- The segment mean: the row's accumulated sum over its clamped count. -/
def mean (S : Mat 131072 128) (C : Col 131072) : Mat 131072 128 := fun i => Ideal.div (S i) (C (ix1 (i 0)))

/-- The whole result: every row of the mean array through the two layers. -/
def out (S : Mat 131072 128) (C : Col 131072) (W1 : Mat 128 512) (b1 : Col 512) (W2 : Mat 512 128) (b2 : Col 128) :
    Mat 131072 128 := fun i =>
  layer2 (Ideal.ofBits .f32 0x00000000#32) (fun j => mean S C (ix2 (i 0) j)) W1 (fun k => b1 (ix1 k)) W2 (fun q => b2 (ix1 q)) (i 1)

/-- A clamped count is never zero: it is at least `1`. -/
theorem clamp_ne_zero (cnt : Col 131072) (r : (⟨1, ![131072]⟩ : Shape).Idx) : clamp cnt r ≠ 0 := by
  have h : (1 : EReal) ≤ clamp cnt r := by
    unfold clamp; rw [one_word]; exact le_max_right _ _
  exact (lt_of_lt_of_le zero_lt_one h).ne'

/-- Multiplying by the reciprocal `1 / c` is dividing by `c`, for every extended real `s` and every `c ≠ 0`:
    both are `s * c⁻¹`. -/
theorem mul_recip_eq_div (s c : EReal) (hc : c ≠ 0) :
    s * Ideal.div (Ideal.ofBits .f32 0x3F800000#32) c = Ideal.div s c := by
  unfold Ideal.div
  rw [if_neg hc, if_neg hc, one_word, one_mul]

end Cert.Mlp

end
-- ==== Proof.RefValue.lean ====
/-
  The reference's result, read index by index, is `Cert.Mlp.out` of its two scatter sums and the weights:
  its mean is the sum over the clamped count (a plain quotient), its two `dot_general`s are the two
  sums of `layer2`, and its biases are the vectors spread along the rows.
-/
import proofs.«135100_j78030965834371_1_alg».proof.Proof.Gen.ReferenceIdeal.Read
import proofs.«135100_j78030965834371_1_alg».proof.Proof.Mlp

noncomputable section

namespace Cert.ReferenceIdeal.RefValue

open Cert.ReferenceIdeal Cert.ReferenceIdeal.Read Idealize.ShloMosaic Idealize.ShloMosaic.ValueIdx

/-! ## The composed index maps, at explicit coordinates (row `p`, feature `j`, hidden unit `k`, output column `q`) -/

theorem row_of_v12 (p : Fin 131072) (j : Fin 128) : idx_main_v11 (idx_main_v12 (ix2 p j)) = ix1 p :=
  funext fun a => Fin.ext (by match a with | ⟨0, _⟩ => rfl)

theorem lidx14 (p : Fin 131072) (k : Fin 512) (j : Fin 128) : lidx_main_v14 (ix2 p k) j = ix2 p j :=
  funext fun a => Fin.ext (by match a with | ⟨0, _⟩ => rfl | ⟨1, _⟩ => rfl)

theorem ridx14 (p : Fin 131072) (k : Fin 512) (j : Fin 128) : ridx_main_v14 (ix2 p k) j = ix2 j k :=
  funext fun a => Fin.ext (by match a with | ⟨0, _⟩ => rfl | ⟨1, _⟩ => rfl)

theorem col_of_v16 (p : Fin 131072) (k : Fin 512) : idx_main_v15 (idx_main_v16 (ix2 p k)) = ix1 k :=
  funext fun a => Fin.ext (by match a with | ⟨0, _⟩ => rfl)

theorem lidx19 (p : Fin 131072) (q : Fin 128) (k : Fin 512) : lidx_main_v19 (ix2 p q) k = ix2 p k :=
  funext fun a => Fin.ext (by match a with | ⟨0, _⟩ => rfl | ⟨1, _⟩ => rfl)

theorem ridx19 (p : Fin 131072) (q : Fin 128) (k : Fin 512) : ridx_main_v19 (ix2 p q) k = ix2 k q :=
  funext fun a => Fin.ext (by match a with | ⟨0, _⟩ => rfl | ⟨1, _⟩ => rfl)

theorem col_of_v21 (p : Fin 131072) (q : Fin 128) : idx_main_v20 (idx_main_v21 (ix2 p q)) = ix1 q :=
  funext fun a => Fin.ext (by match a with | ⟨0, _⟩ => rfl)

/-! ## The stages -/

/-- The clamped count is `max cnt 1`. -/
theorem clamp_eq (x1 : (⟨S2x2097152, .i32⟩ : BufTy).Contents (Elt Ideal)) :
    val_main_v10 (F := Ideal) x1 = Cert.Mlp.clamp (val_main_v8 (F := Ideal) x1) := by
  funext r
  rw [val_main_v10_apply, val_main_v9_apply, val_main_cst_2_apply]
  rfl

/-- The reference's mean is the quotient of the sums by the clamped counts. -/
theorem mean_apply (x0 : (⟨S2097152x128, .f32⟩ : BufTy).Contents (Elt Ideal)) (x1 : (⟨S2x2097152, .i32⟩ : BufTy).Contents (Elt Ideal))
    (p : Fin 131072) (j : Fin 128) :
    val_main_v13 (F := Ideal) x0 x1 (ix2 p j)
      = Cert.Mlp.mean (val_main_v4 (F := Ideal) x0 x1) (Cert.Mlp.clamp (val_main_v8 (F := Ideal) x1)) (ix2 p j) := by
  rw [val_main_v13_apply, val_main_v12_apply, val_main_v11_apply, row_of_v12, clamp_eq]
  rfl

/-- The hidden layer at row `p`, unit `k`. -/
theorem hidden_apply (x0 : (⟨S2097152x128, .f32⟩ : BufTy).Contents (Elt Ideal)) (x1 : (⟨S2x2097152, .i32⟩ : BufTy).Contents (Elt Ideal))
    (x2 : (⟨S128x512, .f32⟩ : BufTy).Contents (Elt Ideal)) (x3 : (⟨S512, .f32⟩ : BufTy).Contents (Elt Ideal)) (p : Fin 131072) (k : Fin 512) :
    val_main_v18 (F := Ideal) x0 x1 x2 x3 (ix2 p k)
      = max ((∑ j : Fin 128, Cert.Mlp.mean (val_main_v4 (F := Ideal) x0 x1) (Cert.Mlp.clamp (val_main_v8 (F := Ideal) x1)) (ix2 p j) * x2 (ix2 j k))
          + x3 (ix1 k)) (Ideal.ofBits .f32 0x00000000#32) := by
  rw [val_main_v18_apply, val_main_v17_apply, val_main_v14_apply, val_main_v16_apply, val_main_v15_apply, col_of_v16,
    val_main_call0_v0_apply, val_main_call0_cst_apply]
  refine congrArg₂ max (congrArg₂ (· + ·) (Finset.sum_congr rfl fun j _ => ?_) rfl) rfl
  rw [lidx14, ridx14, mean_apply]

/-- THE REFERENCE IS `out`. -/
theorem result_eq (x0 : (⟨S2097152x128, .f32⟩ : BufTy).Contents (Elt Ideal)) (x1 : (⟨S2x2097152, .i32⟩ : BufTy).Contents (Elt Ideal))
    (x2 : (⟨S128x512, .f32⟩ : BufTy).Contents (Elt Ideal)) (x3 : (⟨S512, .f32⟩ : BufTy).Contents (Elt Ideal))
    (x4 : (⟨S512x128, .f32⟩ : BufTy).Contents (Elt Ideal)) (x5 : (⟨S128, .f32⟩ : BufTy).Contents (Elt Ideal)) :
    val_main_v22 (F := Ideal) x0 x1 x2 x3 x4 x5
      = Cert.Mlp.out (val_main_v4 (F := Ideal) x0 x1) (Cert.Mlp.clamp (val_main_v8 (F := Ideal) x1)) x2 x3 x4 x5 := by
  funext i
  obtain ⟨p, q, rfl⟩ : ∃ (p : Fin 131072) (q : Fin 128), i = ix2 p q := ⟨i 0, i 1, eq_ix2 i⟩
  rw [val_main_v22_apply, val_main_v19_apply, val_main_v21_apply, val_main_v20_apply, col_of_v21]
  unfold Cert.Mlp.out Cert.Mlp.layer2
  refine congrArg₂ (· + ·) (Finset.sum_congr rfl fun k _ => ?_) rfl
  rw [lidx19, ridx19, hidden_apply]

end Cert.ReferenceIdeal.RefValue

end
-- ==== Proof.KernelRow.lean ====
/-
  What the kernel body stores, read at one entry of a block.

  The body takes a block of 2048 mean rows and the whole weights.  Its two matrix products, each into a zero
  accumulator, are plain sums over the contracted coordinate; the changes of float format between them are the
  identity on the extended reals; the biases arrive as one-row matrices spread along the rows.  So the stored
  value at (row `p` of the block, column `q`) is `Cert.Mlp.layer2` of that block row.
-/
import proofs.«135100_j78030965834371_1_alg».proof.Proof.Gen.KernelIdeal.Skeleton
import proofs.«135100_j78030965834371_1_alg».proof.Proof.Mlp
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx

/-! ## The first product: a [2048, 128] block times the [128, 512] weights -/

theorem lhs1_0 (i : S2048x512.Idx) (u : dot_S2048x128_S128x512_S2048x512_1_0_0_1_n_n.contr.Idx) : (dot_S2048x128_S128x512_S2048x512_1_0_0_1_n_n.lhsIdx i u 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs1_1 (i : S2048x512.Idx) (u : dot_S2048x128_S128x512_S2048x512_1_0_0_1_n_n.contr.Idx) : (dot_S2048x128_S128x512_S2048x512_1_0_0_1_n_n.lhsIdx i u 1).val = (u ⟨0, by decide⟩).val :=
  dot_S2048x128_S128x512_S2048x512_1_0_0_1_n_n.lhsIdx_val_of_single rfl i u
theorem rhs1_0 (i : S2048x512.Idx) (u : dot_S2048x128_S128x512_S2048x512_1_0_0_1_n_n.contr.Idx) : (dot_S2048x128_S128x512_S2048x512_1_0_0_1_n_n.rhsIdx i u 0).val = (u ⟨0, by decide⟩).val :=
  dot_S2048x128_S128x512_S2048x512_1_0_0_1_n_n.rhsIdx_val_of_single rfl i u
theorem rhs1_1 (i : S2048x512.Idx) (u : dot_S2048x128_S128x512_S2048x512_1_0_0_1_n_n.contr.Idx) : (dot_S2048x128_S128x512_S2048x512_1_0_0_1_n_n.rhsIdx i u 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The first product into a zero accumulator, at (row `p`, unit `k`): the sum over the 128 features. -/
theorem prod1_apply {φ₁ φ₂ : FTy} (l : FVec Ideal S2048x128 φ₁) (r : FVec Ideal S128x512 φ₂) (p : Fin 2048) (k : Fin 512) :
    matmul dot_S2048x128_S128x512_S2048x512_1_0_0_1_n_n none l r (constant S2048x512 .f32 0x00000000#32) (ix2 p k)
      = ∑ j : Fin 128, l (ix2 p j) * r (ix2 j k) := by
  simp only [matmul]
  rw [Ideal.matmul_constant_zero_apply, ← Equiv.sum_comp (contrEquiv1 dot_S2048x128_S128x512_S2048x512_1_0_0_1_n_n 128 rfl rfl).symm]
  refine Finset.sum_congr rfl fun j _ => ?_
  have hj := contrEquiv1_symm_val dot_S2048x128_S128x512_S2048x512_1_0_0_1_n_n 128 rfl rfl j
  have el : dot_S2048x128_S128x512_S2048x512_1_0_0_1_n_n.lhsIdx (ix2 p k) ((contrEquiv1 dot_S2048x128_S128x512_S2048x512_1_0_0_1_n_n 128 rfl rfl).symm j) = ix2 p j := funext fun a => Fin.ext (by
    match a with
    | ⟨0, _⟩ => exact lhs1_0 _ _
    | ⟨1, _⟩ => exact (lhs1_1 _ _).trans hj)
  have er : dot_S2048x128_S128x512_S2048x512_1_0_0_1_n_n.rhsIdx (ix2 p k) ((contrEquiv1 dot_S2048x128_S128x512_S2048x512_1_0_0_1_n_n 128 rfl rfl).symm j) = ix2 j k := funext fun a => Fin.ext (by
    match a with
    | ⟨0, _⟩ => exact (rhs1_0 _ _).trans hj
    | ⟨1, _⟩ => exact rhs1_1 _ _)
  rw [el, er]

/-! ## The second product: the [2048, 512] hidden block times the [512, 128] weights -/

theorem lhs2_0 (i : S2048x128.Idx) (u : dot_S2048x512_S512x128_S2048x128_1_0_0_1_n_n.contr.Idx) : (dot_S2048x512_S512x128_S2048x128_1_0_0_1_n_n.lhsIdx i u 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs2_1 (i : S2048x128.Idx) (u : dot_S2048x512_S512x128_S2048x128_1_0_0_1_n_n.contr.Idx) : (dot_S2048x512_S512x128_S2048x128_1_0_0_1_n_n.lhsIdx i u 1).val = (u ⟨0, by decide⟩).val :=
  dot_S2048x512_S512x128_S2048x128_1_0_0_1_n_n.lhsIdx_val_of_single rfl i u
theorem rhs2_0 (i : S2048x128.Idx) (u : dot_S2048x512_S512x128_S2048x128_1_0_0_1_n_n.contr.Idx) : (dot_S2048x512_S512x128_S2048x128_1_0_0_1_n_n.rhsIdx i u 0).val = (u ⟨0, by decide⟩).val :=
  dot_S2048x512_S512x128_S2048x128_1_0_0_1_n_n.rhsIdx_val_of_single rfl i u
theorem rhs2_1 (i : S2048x128.Idx) (u : dot_S2048x512_S512x128_S2048x128_1_0_0_1_n_n.contr.Idx) : (dot_S2048x512_S512x128_S2048x128_1_0_0_1_n_n.rhsIdx i u 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The second product into a zero accumulator, at (row `p`, column `q`): the sum over the 512 hidden units. -/
theorem prod2_apply {φ₁ φ₂ : FTy} (l : FVec Ideal S2048x512 φ₁) (r : FVec Ideal S512x128 φ₂) (p : Fin 2048) (q : Fin 128) :
    matmul dot_S2048x512_S512x128_S2048x128_1_0_0_1_n_n none l r (constant S2048x128 .f32 0x00000000#32) (ix2 p q)
      = ∑ k : Fin 512, l (ix2 p k) * r (ix2 k q) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p q) ((contrEquiv1 dot_S2048x512_S512x128_S2048x128_1_0_0_1_n_n 512 rfl rfl).symm k) = ix2 p k := funext fun a => Fin.ext (by
    match a with
    | ⟨0, _⟩ => exact lhs2_0 _ _
    | ⟨1, _⟩ => exact (lhs2_1 _ _).trans hk)
  have er : dot_S2048x512_S512x128_S2048x128_1_0_0_1_n_n.rhsIdx (ix2 p q) ((contrEquiv1 dot_S2048x512_S512x128_S2048x128_1_0_0_1_n_n 512 rfl rfl).symm k) = ix2 k q := funext fun a => Fin.ext (by
    match a with
    | ⟨0, _⟩ => exact (rhs2_0 _ _).trans hk
    | ⟨1, _⟩ => exact rhs2_1 _ _)
  rw [el, er]

/-! ## The biases: a one-row matrix spread along the rows -/

theorem bias1_apply (b : FVec Ideal S1x512 .f32) (p : Fin 2048) (k : Fin 512) :
    broadcastTo S2048x512 b broadcasts_S1x512_S2048x512 (ix2 p k) = b (ix2 (0 : Fin 1) k) :=
  broadcastTo_apply b broadcasts_S1x512_S2048x512 (ix2 p k) (ix2 (0 : Fin 1) k) (fun a => match a with
    | ⟨0, _⟩ => by show 0 = if (1 : Nat) = 1 then 0 else p.val; rw [if_pos rfl]
    | ⟨1, _⟩ => by show k.val = if (512 : Nat) = 1 then 0 else k.val; rw [if_neg (by decide)])

theorem bias2_apply (b : FVec Ideal S1x128 .f32) (p : Fin 2048) (q : Fin 128) :
    broadcastTo S2048x128 b broadcasts_S1x128_S2048x128 (ix2 p q) = b (ix2 (0 : Fin 1) q) :=
  broadcastTo_apply b broadcasts_S1x128_S2048x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The stored value -/

/-- The body's arithmetic with the casts to the same shape removed (the changes of format stay: they are the identity
    entry by entry). -/
theorem pay_form (x0 : Vec Ideal S2048x128 .f32) (x1 : Vec Ideal S128x512 .f32) (x2 : Vec Ideal S1x512 .f32)
    (x3 : Vec Ideal S512x128 .f32) (x4 : Vec Ideal S1x128 .f32) :
    k0_pay1 (F := Ideal) x0 x1 x2 x3 x4
      = addf (matmul dot_S2048x512_S512x128_S2048x128_1_0_0_1_n_n none
          (truncf .bf16 (maximumf (addf (matmul dot_S2048x128_S128x512_S2048x512_1_0_0_1_n_n none (truncf .bf16 x0 bitsLt_bf16_f32) (truncf .bf16 x1 bitsLt_bf16_f32)
                (constant S2048x512 .f32 0x00000000#32))
              (broadcastTo S2048x512 x2 broadcasts_S1x512_S2048x512))
            (broadcast S2048x512 (Scalar.ofBits (F := Ideal) .f32 0x00000000#32))) bitsLt_bf16_f32)
          (truncf .bf16 x3 bitsLt_bf16_f32) (constant S2048x128 .f32 0x00000000#32))
        (broadcastTo S2048x128 x4 broadcasts_S1x128_S2048x128) := by
  unfold k0_pay1
  simp only [shapeCast_self]

/-- THE STORED VALUE at (row `p` of the block, column `q`) is the block row through the two layers. -/
theorem pay_apply (x0 : Vec Ideal S2048x128 .f32) (x1 : Vec Ideal S128x512 .f32) (x2 : Vec Ideal S1x512 .f32)
    (x3 : Vec Ideal S512x128 .f32) (x4 : Vec Ideal S1x128 .f32) (p : Fin 2048) (q : Fin 128) :
    k0_pay1 (F := Ideal) x0 x1 x2 x3 x4 (ix2 p q)
      = Cert.Mlp.layer2 (Ideal.ofBits .f32 0x00000000#32) (fun j => x0 (ix2 p j)) x1 (fun k => x2 (ix2 (0 : Fin 1) k)) x3
          (fun q' => x4 (ix2 (0 : Fin 1) q')) q := by
  rw [pay_form, addf_apply, prod2_apply, bias2_apply]
  unfold Cert.Mlp.layer2
  refine congrArg₂ (· + ·) (Finset.sum_congr rfl fun k _ => ?_) rfl
  rw [truncf_apply, maximumf_apply, addf_apply, prod1_apply, bias1_apply, broadcast_apply]
  rfl

end Cert.KernelIdeal.RowValue

end
-- ==== Proof.KernelHost.lean ====
/-
  What the kernel's region finds in the arrays the host operations before it wrote.

  The mean array is the accumulated sums times the reciprocal of the clamped counts, the reciprocal being a
  vector made into a column and spread along the 128 features.  Entry (row `p`, feature `j`) is therefore
  `S p j * (1 / c p)` with `c p = max (cnt p) 1`, which is the quotient `S p j / c p` because `c p ≠ 0`.
  The two bias arrays are the bias vectors seen as one-row matrices.
-/
import proofs.«135100_j78030965834371_1_alg».proof.Proof.Gen.KernelIdeal.Frame
import proofs.«135100_j78030965834371_1_alg».proof.Proof.Mlp
import Idealize.ShloMosaic.Lib.Pipeline.Value
import Idealize.ShloMosaic.Lib.ValueIdx
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

/-! ## The two accumulating scatters, as functions of the argument arrays -/

/-- Row 1 of the index pair array, as a column of segment ids. -/
def segIds (x1 : (⟨S2x2097152, .i32⟩ : BufTy).Contents (Elt Ideal)) : (⟨S2097152x1, .i32⟩ : BufTy).Contents (Elt Ideal) :=
  broadcastInDim S2097152x1 ![0] bcast_S2097152_S2097152x1_0
    (shapeCast _ (extractStridedSlice S1x2097152 ![1, 0] x1 slices_S2x2097152_S1x2097152_1_0) shapeCasts_S1x2097152_S2097152)

/-- The feature rows accumulated per segment, from zero. -/
def sums (x0 : (⟨S2097152x128, .f32⟩ : BufTy).Contents (Elt Ideal)) (x1 : (⟨S2x2097152, .i32⟩ : BufTy).Contents (Elt Ideal)) :
    (⟨S131072x128, .f32⟩ : BufTy).Contents (Elt Ideal) :=
  Host.scatterAdd scatter_S131072x128_S2097152x1_S2097152x128_1_0_0_1
    (broadcastInDim S131072x128 ![] bcast_S_S131072x128 (constant (F := Ideal) S_ .f32 0x00000000#32)) (segIds x1) x0

/-- Ones accumulated per segment, from zero: the segment sizes. -/
def counts (x1 : (⟨S2x2097152, .i32⟩ : BufTy).Contents (Elt Ideal)) : (⟨S131072, .f32⟩ : BufTy).Contents (Elt Ideal) :=
  Host.scatterAdd scatter_S131072_S2097152x1_S2097152_n_0_0_1
    (broadcastInDim S131072 ![] bcast_S_S131072 (constant (F := Ideal) S_ .f32 0x00000000#32)) (segIds x1)
    (broadcastInDim S2097152 ![] bcast_S_S2097152 (constant (F := Ideal) S_ .f32 0x3F800000#32))

/-! ## Layout operations at coordinates -/

/-- A scalar word spread over a vector reads that word everywhere. -/
theorem splat_apply (b : BitVec 32) (r : S131072.Idx) :
    broadcastInDim S131072 ![] bcast_S_S131072 (constant (F := Ideal) S_ .f32 b) r = Ideal.ofBits .f32 b :=
  broadcastInDim_apply _ bcast_S_S131072 (constant (F := Ideal) S_ .f32 b) r ix0 (fun a => a.elim0)

/-- A vector set up as a column, at (p, 0), is the vector's entry p. -/
theorem column_apply (v : FVec Ideal S131072 .f32) (p : Fin 131072) :
    broadcastInDim S131072x1 ![0] bcast_S131072_S131072x1_0 v (ix2 p (0 : Fin 1)) = v (ix1 p) :=
  broadcastInDim_apply _ bcast_S131072_S131072x1_0 v (ix2 p (0 : Fin 1)) (ix1 p) (fun a => match a with
    | ⟨0, _⟩ => by show p.val = if (131072 : Nat) = 1 then 0 else p.val; rw [if_neg (by decide)])

/-- A column spread along the rows, at (p, j), is the column's entry (p, 0). -/
theorem spread_apply (w : FVec Ideal S131072x1 .f32) (p : Fin 131072) (j : Fin 128) :
    broadcastInDim S131072x128 ![0, 1] bcast_S131072x1_S131072x128_0_1 w (ix2 p j) = w (ix2 p (0 : Fin 1)) :=
  broadcastInDim_apply _ bcast_S131072x1_S131072x128_0_1 w (ix2 p j) (ix2 p (0 : Fin 1)) (fun a => match a with
    | ⟨0, _⟩ => by show p.val = if (131072 : Nat) = 1 then 0 else p.val; rw [if_neg (by decide)]
    | ⟨1, _⟩ => by show 0 = if (1 : Nat) = 1 then 0 else j.val; rw [if_pos rfl])

/-- The host's quotient, entry by entry. -/
theorem hostDivf_apply {s : Shape} {φ : FTy} (a b : FVec Ideal s φ) (i : s.Idx) : Host.divf a b i = Ideal.div (a i) (b i) := rfl

variable (m : (ℓ : Loc nD τ sig) → Buf (Elt Ideal) ℓ)

/-! ## The mean array -/

/-- The mean array as the region finds it: the host operations' term of the argument arrays. -/
theorem V_mean (c : Dev nD) :
    (V m c main_v15 : S131072x128.Idx → EReal)
      = mulf (sums (m ((c : Thread nD τ).loc main_arg0)) (m ((c : Thread nD τ).loc main_arg1)))
          (broadcastInDim S131072x128 ![0, 1] bcast_S131072x1_S131072x128_0_1
            (broadcastInDim S131072x1 ![0] bcast_S131072_S131072x1_0
              (Host.divf (broadcastInDim S131072 ![] bcast_S_S131072 (constant (F := Ideal) S_ .f32 0x3F800000#32))
                (maximumf (counts (m ((c : Thread nD τ).loc main_arg1)))
                  (broadcastInDim S131072 ![] bcast_S_S131072 (constant (F := Ideal) S_ .f32 0x3F800000#32)))))) := by
  dsimp only [Gen.V, Gen.hostOps0]; after_results; rfl

/-- Entry (p, j) of the mean array is the quotient of the sum by the clamped count. -/
theorem mean_apply (c : Dev nD) (p : Fin 131072) (j : Fin 128) :
    (V m c main_v15 : S131072x128.Idx → EReal) (ix2 p j)
      = Cert.Mlp.mean (sums (m ((c : Thread nD τ).loc main_arg0)) (m ((c : Thread nD τ).loc main_arg1)))
          (Cert.Mlp.clamp (counts (m ((c : Thread nD τ).loc main_arg1)))) (ix2 p j) := by
  rw [V_mean, mulf_apply, spread_apply, column_apply, hostDivf_apply, maximumf_apply, splat_apply]
  exact Cert.Mlp.mul_recip_eq_div _ _ (Cert.Mlp.clamp_ne_zero _ (ix1 p))

/-! ## The biases -/

theorem V_bias1 (c : Dev nD) :
    (V m c main_v16 : S1x512.Idx → EReal) = shapeCast S1x512 (m ((c : Thread nD τ).loc main_arg3)) shapeCasts_S512_S1x512 := by
  dsimp only [Gen.V, Gen.hostOps0]; after_results; rfl

theorem bias1_apply (c : Dev nD) (k : Fin 512) :
    (V m c main_v16 : S1x512.Idx → EReal) (ix2 (0 : Fin 1) k) = m ((c : Thread nD τ).loc main_arg3) (ix1 k) := by
  rw [V_bias1]
  exact shapeCast_apply _ shapeCasts_S512_S1x512 (ix2 (0 : Fin 1) k) (ix1 k)
    (by rw [Shape.rowMajor_val_one, Shape.rowMajor_val_two]; show k.val = 0 * 512 + k.val; omega)

theorem V_bias2 (c : Dev nD) :
    (V m c main_v17 : S1x128.Idx → EReal) = shapeCast S1x128 (m ((c : Thread nD τ).loc main_arg5)) shapeCasts_S128_S1x128 := by
  dsimp only [Gen.V, Gen.hostOps0]; after_results; rfl

theorem bias2_apply (c : Dev nD) (q : Fin 128) :
    (V m c main_v17 : S1x128.Idx → EReal) (ix2 (0 : Fin 1) q) = m ((c : Thread nD τ).loc main_arg5) (ix1 q) := by
  rw [V_bias2]
  exact shapeCast_apply _ shapeCasts_S128_S1x128 (ix2 (0 : Fin 1) q) (ix1 q)
    (by rw [Shape.rowMajor_val_one, Shape.rowMajor_val_two]; show q.val = 0 * 128 + q.val; omega)

end Cert.KernelIdeal.HostValue

end
-- ==== Proof.KernelArray.lean ====
/-
  From the blocks each grid point writes to the whole result array.

  Grid point `t` (of 64) reads rows `2048 t … 2048 t + 2047` of the mean array and the whole weights, and writes
  the same rows of the result.  What it writes is, entry by entry, `Cert.Mlp.layer2` of the mean row — that is,
  the block of `Cert.Mlp.out`.  The 64 blocks tile the 131072 rows (row `r` is in block `r / 2048`), so after
  the run the result array is `Cert.Mlp.out` everywhere.
-/
import proofs.«135100_j78030965834371_1_alg».proof.Proof.Gen.KernelIdeal.Value
import proofs.«135100_j78030965834371_1_alg».proof.Proof.KernelRow
import proofs.«135100_j78030965834371_1_alg».proof.Proof.KernelHost

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as ONE function of the argument arrays. -/
def result (c : Dev nD) : S131072x128.Idx → EReal :=
  Cert.Mlp.out (HostValue.sums (m ((c : Thread nD τ).loc main_arg0)) (m ((c : Thread nD τ).loc main_arg1)))
    (Cert.Mlp.clamp (HostValue.counts (m ((c : Thread nD τ).loc main_arg1))))
    (m ((c : Thread nD τ).loc main_arg2)) (m ((c : Thread nD τ).loc main_arg3))
    (m ((c : Thread nD τ).loc main_arg4)) (m ((c : Thread nD τ).loc main_arg5))

theorem zero_offsets : (![0, 0] : Fin 2 → Nat) = fun _ => 0 := funext fun a => by fin_cases a <;> rfl

/-- The printed index maps over the grid: the mean and result windows follow the grid point along the rows, the
    weights and biases stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `2048 t + p` of the array. -/
def row (t : Fin cfg0.N) (p : Fin 2048) : Fin 131072 :=
  ⟨t.val * 2048 + p.val, by have ht : t.val < 64 := t.isLt; have hp := p.isLt; omega⟩

/-! ## A window's block read at coordinates, for any contents `X` of its array -/

theorem read_mean (X : S131072x128.Idx → EReal) (t : Fin cfg0.N) (p : Fin 2048) (j : Fin 128) :
    ((cfg0.win 0).blk t).view.read (Elt Ideal) X (ix2 p j) = X (ix2 (row t p) j) := by
  obtain ⟨e0, e1, -⟩ := idx_facts t
  show X (((cfg0.win 0).blk t).view.emb (ix2 p j)) = X (ix2 (row t p) j)
  refine congrArg X (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * j.val = j.val; omega

theorem read_W1 (X : S128x512.Idx → EReal) (t : Fin cfg0.N) :
    ((cfg0.win 1).blk t).view.read (Elt Ideal) X = X := by
  obtain ⟨-, -, e0, e1, -⟩ := idx_facts t
  funext y
  show X (((cfg0.win 1).blk t).view.emb y) = X y
  refine congrArg X (funext fun a => Fin.ext ?_)
  match a with
  | ⟨0, _⟩ => show win0_1.index t (0 : Fin 2) * 128 + 1 * (y 0).val = (y 0).val; omega
  | ⟨1, _⟩ => show win0_1.index t (1 : Fin 2) * 512 + 1 * (y 1).val = (y 1).val; omega

theorem read_b1 (X : S1x512.Idx → EReal) (t : Fin cfg0.N) (k : Fin 512) :
    ((cfg0.win 2).blk t).view.read (Elt Ideal) X (ix2 (0 : Fin 1) k) = X (ix2 (0 : Fin 1) k) := by
  obtain ⟨-, -, -, -, e0, e1, -⟩ := idx_facts t
  show X (((cfg0.win 2).blk t).view.emb (ix2 (0 : Fin 1) k)) = X (ix2 (0 : Fin 1) k)
  refine congrArg X (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

theorem read_W2 (X : S512x128.Idx → EReal) (t : Fin cfg0.N) :
    ((cfg0.win 3).blk t).view.read (Elt Ideal) X = X := by
  obtain ⟨-, -, -, -, -, -, e0, e1, -⟩ := idx_facts t
  funext y
  show X (((cfg0.win 3).blk t).view.emb y) = X y
  refine congrArg X (funext fun a => Fin.ext ?_)
  match a with
  | ⟨0, _⟩ => show win0_3.index t (0 : Fin 2) * 512 + 1 * (y 0).val = (y 0).val; omega
  | ⟨1, _⟩ => show win0_3.index t (1 : Fin 2) * 128 + 1 * (y 1).val = (y 1).val; omega

theorem read_b2 (X : S1x128.Idx → EReal) (t : Fin cfg0.N) (q : Fin 128) :
    ((cfg0.win 4).blk t).view.read (Elt Ideal) X (ix2 (0 : Fin 1) q) = X (ix2 (0 : Fin 1) q) := by
  obtain ⟨-, -, -, -, -, -, -, -, e0, e1, -⟩ := idx_facts t
  show X (((cfg0.win 4).blk t).view.emb (ix2 (0 : Fin 1) q)) = X (ix2 (0 : Fin 1) q)
  refine congrArg X (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## The input blocks at a point, in terms of the argument arrays -/

theorem blk_mean (c : Dev nD) (t : Fin cfg0.N) (p : Fin 2048) (j : Fin 128) :
    iblk m c 0 t (ix2 p j)
      = Cert.Mlp.mean (HostValue.sums (m ((c : Thread nD τ).loc main_arg0)) (m ((c : Thread nD τ).loc main_arg1)))
          (Cert.Mlp.clamp (HostValue.counts (m ((c : Thread nD τ).loc main_arg1)))) (ix2 (row t p) j) :=
  (read_mean _ t p j).trans (HostValue.mean_apply m c (row t p) j)

theorem blk_W1 (c : Dev nD) (t : Fin cfg0.N) :
    (iblk m c 1 t : S128x512.Idx → EReal) = m ((c : Thread nD τ).loc main_arg2) :=
  (read_W1 _ t).trans (V_main_arg2 m c)

theorem blk_b1 (c : Dev nD) (t : Fin cfg0.N) (k : Fin 512) :
    iblk m c 2 t (ix2 (0 : Fin 1) k) = m ((c : Thread nD τ).loc main_arg3) (ix1 k) :=
  (read_b1 _ t k).trans (HostValue.bias1_apply m c k)

theorem blk_W2 (c : Dev nD) (t : Fin cfg0.N) :
    (iblk m c 3 t : S512x128.Idx → EReal) = m ((c : Thread nD τ).loc main_arg4) :=
  (read_W2 _ t).trans (V_main_arg4 m c)

theorem blk_b2 (c : Dev nD) (t : Fin cfg0.N) (q : Fin 128) :
    iblk m c 4 t (ix2 (0 : Fin 1) q) = m ((c : Thread nD τ).loc main_arg5) (ix1 q) :=
  (read_b2 _ t q).trans (HostValue.bias2_apply m c q)

/-- Entry (p, q) of the result block at point `t` is entry (2048 t + p, q) of the array. -/
theorem emb_out (t : Fin cfg0.N) (p : Fin 2048) (q : Fin 128) :
    ((cfg0.win 5).blk t).view.emb (ix2 p q) = ix2 (row t p) q := by
  obtain ⟨-, -, -, -, -, -, -, -, -, -, e0, e1⟩ := idx_facts t
  refine funext fun a => Fin.ext ?_
  match a with
  | ⟨0, _⟩ => show win0_5.index t (0 : Fin 2) * 2048 + 1 * p.val = t.val * 2048 + p.val; omega
  | ⟨1, _⟩ => show win0_5.index t (1 : Fin 2) * 128 + 1 * q.val = q.val; omega

/-! ## What a point writes back -/

/-- The body's one store covers the whole result buffer, so the buffer ends at the stored value. -/
theorem out_eq (x0 : Vec Ideal S2048x128 .f32) (x1 : Vec Ideal S128x512 .f32) (x2 : Vec Ideal S1x512 .f32)
    (x3 : Vec Ideal S512x128 .f32) (x4 : Vec Ideal S1x128 .f32) :
    out0_5 x0 x1 x2 x3 x4 = k0_pay1 x0 x1 x2 x3 x4 := by
  unfold out0_5
  rw [View.canon_unit_zero zero_offsets]
  simp only [View.ld_unit_zero (S := S2048x128) zero_offsets, View.ld_unit_zero (S := S128x512) zero_offsets,
    View.ld_unit_zero (S := S1x512) zero_offsets, View.ld_unit_zero (S := S512x128) zero_offsets,
    View.ld_unit_zero (S := S1x128) zero_offsets]

/-- A result buffer `Y` that agrees, entry by entry, with rows `2048 t …` of an array function `G` is, written back
    at point `t`, block `t` of `G`. -/
theorem writeback_eq (Y : Vec Ideal S2048x128 .f32) (G : S131072x128.Idx → EReal) (t : Fin cfg0.N)
    (h : ∀ (p : Fin 2048) (q : Fin 128), Y (ix2 p q) = G (ix2 (row t p) q)) :
    (cfg0.win 5).cut (grid0.coords t) Y = ((cfg0.win 5).blk t).view.read (Elt Ideal) G := by
  funext y
  obtain ⟨p, q, rfl⟩ : ∃ (p : Fin 2048) (q : Fin 128), y = ix2 p q := ⟨y 0, y 1, eq_ix2 y⟩
  show Y (ix2 p q) = G (((cfg0.win 5).blk t).view.emb (ix2 p q))
  rw [emb_out]
  exact h p q

/-- The stored value at (p, q), for a block whose rows, weights and biases are known. -/
theorem pay_of (x0 : Vec Ideal S2048x128 .f32) (x1 : Vec Ideal S128x512 .f32) (x2 : Vec Ideal S1x512 .f32)
    (x3 : Vec Ideal S512x128 .f32) (x4 : Vec Ideal S1x128 .f32) (p : Fin 2048) (q : Fin 128)
    (xrow : Fin 128 → EReal) (W1 : Cert.Mlp.Mat 128 512) (b1 : Fin 512 → EReal) (W2 : Cert.Mlp.Mat 512 128) (b2 : Fin 128 → EReal)
    (h0 : ∀ j, x0 (ix2 p j) = xrow j) (h1 : x1 = W1) (h2 : ∀ k, x2 (ix2 (0 : Fin 1) k) = b1 k) (h3 : x3 = W2)
    (h4 : ∀ q', x4 (ix2 (0 : Fin 1) q') = b2 q') :
    k0_pay1 (F := Ideal) x0 x1 x2 x3 x4 (ix2 p q) = Cert.Mlp.layer2 (Ideal.ofBits .f32 0x00000000#32) xrow W1 b1 W2 b2 q := by
  subst h1 h3
  rw [RowValue.pay_apply, funext h0, funext h2, funext h4]

/-- WHAT POINT `t` WRITES BACK is block `t` of `result`. -/
theorem flushed_eq (c : Dev nD) (t : Fin cfg0.N) :
    (dats m 0 c).flushed 5 t = ((cfg0.win 5).blk t).view.read (Elt Ideal) (result m c) := by
  refine (Value.flushed5 m c t).trans ?_
  rw [out_eq]
  refine writeback_eq (k0_pay1 (iblk m c 0 t) (iblk m c 1 t) (iblk m c 2 t) (iblk m c 3 t) (iblk m c 4 t)) (result m c) t fun p q => ?_
  exact pay_of (iblk m c 0 t) (iblk m c 1 t) (iblk m c 2 t) (iblk m c 3 t) (iblk m c 4 t) p q
    (fun j => Cert.Mlp.mean (HostValue.sums (m ((c : Thread nD τ).loc main_arg0)) (m ((c : Thread nD τ).loc main_arg1)))
      (Cert.Mlp.clamp (HostValue.counts (m ((c : Thread nD τ).loc main_arg1)))) (ix2 (row t p) j))
    (m ((c : Thread nD τ).loc main_arg2)) (fun k => m ((c : Thread nD τ).loc main_arg3) (ix1 k))
    (m ((c : Thread nD τ).loc main_arg4)) (fun q' => m ((c : Thread nD τ).loc main_arg5) (ix1 q'))
    (fun j => blk_mean m c t p j) (blk_W1 m c t) (fun k => blk_b1 m c t k) (blk_W2 m c t) (fun q' => blk_b2 m c t q')

/-! ## The blocks tile the rows -/

/-- An index of the array is in point `t`'s block iff each coordinate is in the block's range on its axis. -/
theorem mem_blk (t : Fin cfg0.N) (i : S131072x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v18).slice (win0_5.rect t)).set ↔ _
  rw [View.set_slice_whole, Rect.mem_set_unit]
  exact Iff.rfl

/-- Every index is in some point's block: row `r` in block `r / 2048`. -/
theorem cover (i : S131072x128.Idx) : ∃ t : Fin cfg0.N, (cfg0.win 5).flush t = true ∧ i ∈ ((cfg0.win 5).blk t).view.set := by
  have hi0 : (i 0).val < 131072 := (i 0).isLt
  have hi1 : (i 1).val < 128 := (i 1).isLt
  have ht : (i 0).val / 2048 < 64 := by omega
  obtain ⟨-, -, -, -, -, -, -, -, -, -, e0, e1⟩ := idx_facts ⟨(i 0).val / 2048, ht⟩
  have e0' : win0_5.index ⟨(i 0).val / 2048, ht⟩ (0 : Fin 2) = (i 0).val / 2048 := e0
  refine ⟨⟨(i 0).val / 2048, ht⟩, flush0_5 _, ?_⟩
  rw [mem_blk]
  intro a
  match a with
  | ⟨0, _⟩ => show win0_5.index ⟨(i 0).val / 2048, ht⟩ (0 : Fin 2) * 2048 ≤ (i 0).val ∧ (i 0).val < win0_5.index ⟨(i 0).val / 2048, ht⟩ (0 : Fin 2) * 2048 + 2048; omega
  | ⟨1, _⟩ => show win0_5.index ⟨(i 0).val / 2048, ht⟩ (1 : Fin 2) * 128 ≤ (i 1).val ∧ (i 1).val < win0_5.index ⟨(i 0).val / 2048, ht⟩ (1 : Fin 2) * 128 + 128; omega

/-! ## The array after the run, and the run -/

/-- THE RESULT ARRAY after the run is `result`. -/
theorem final (c : Dev nD) : (dats m 0 c).arrAt 5 cfg0.N = result m c :=
  (dats m 0 c).arrAt_eq_of_cover 5 (result m c) (fun t _ => flushed_eq m c t) cover

/-- The kernel's run: the result at `result`, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrValue

end
-- ==== Proof.lean ====
/-
  The kernel against its reference, over the extended reals.

  Both programs pool the rows of `x` by hyperedge — an accumulating scatter of the rows, and one of ones for the
  counts — take the mean of each of the 131072 segments, and push every mean row through
  Linear(128→512), a clamp at zero, and Linear(512→128).  The two scatters are the same terms of the
  arguments in both programs and are never opened.  The programs differ in two places only:

  * the mean: the kernel's host code multiplies the sum by the reciprocal `1 / max cnt 1`, the reference divides
    by `max cnt 1`.  A quotient by a nonzero extended real IS the product with its inverse, and the clamped count
    is at least 1, so the two are one function (`Cert.Mlp.mul_recip_eq_div`);
  * the layers: the kernel runs them 2048 rows at a time on a grid of 64 points, with the operands passed through a
    narrower float format (the identity on the extended reals) and each matrix product accumulated into zero; the
    reference applies two whole matrix products.  Entry by entry both are the same two sums
    (`Cert.Mlp.layer2`), and the 64 row blocks tile the result.

  So both runs end with the result array at `Cert.Mlp.out` of the same arguments.  The kernel's frames are the
  generated ones; the reference's frame is its generated run with the result dropped; no rewrite was applied by
  the idealization, so nothing is owed for it.
-/
import proofs.«135100_j78030965834371_1_alg».proof.Defs
import proofs.«135100_j78030965834371_1_alg».proof.Proof.Gen.Kernel
import proofs.«135100_j78030965834371_1_alg».proof.Proof.Gen.Kernel.Skeleton
import proofs.«135100_j78030965834371_1_alg».proof.Proof.Gen.Kernel.Launch
import proofs.«135100_j78030965834371_1_alg».proof.Proof.Gen.Kernel.Points
import proofs.«135100_j78030965834371_1_alg».proof.Proof.Gen.Kernel.Frame
import proofs.«135100_j78030965834371_1_alg».proof.Proof.Gen.KernelIdeal
import proofs.«135100_j78030965834371_1_alg».proof.Proof.Gen.KernelIdeal.Skeleton
import proofs.«135100_j78030965834371_1_alg».proof.Proof.Gen.KernelIdeal.Launch
import proofs.«135100_j78030965834371_1_alg».proof.Proof.Gen.KernelIdeal.Points
import proofs.«135100_j78030965834371_1_alg».proof.Proof.Gen.KernelIdeal.Frame
import proofs.«135100_j78030965834371_1_alg».proof.Proof.Gen.ReferenceIdeal
import proofs.«135100_j78030965834371_1_alg».proof.Proof.Gen.Pre_finite_inputs
import proofs.«135100_j78030965834371_1_alg».proof.Proof.Gen.KernelIdeal.Value
import proofs.«135100_j78030965834371_1_alg».proof.Proof.Gen.ReferenceIdeal.Run
import proofs.«135100_j78030965834371_1_alg».proof.Proof.Gen.ReferenceIdeal.Read
import proofs.«135100_j78030965834371_1_alg».proof.Proof.RefValue
import proofs.«135100_j78030965834371_1_alg».proof.Proof.KernelArray
import Idealize.ShloMosaic.Adequacy
import Idealize.ShloMosaic.Init

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The two programs' scatters are the same functions of the arguments -/

theorem sums_eq (x0 : (⟨Cert.KernelIdeal.S2097152x128, .f32⟩ : BufTy).Contents (Elt Ideal))
    (x1 : (⟨Cert.KernelIdeal.S2x2097152, .i32⟩ : BufTy).Contents (Elt Ideal)) :
    Cert.KernelIdeal.HostValue.sums x0 x1 = Cert.ReferenceIdeal.Read.val_main_v4 (F := Ideal) x0 x1 := rfl

theorem counts_eq (x1 : (⟨Cert.KernelIdeal.S2x2097152, .i32⟩ : BufTy).Contents (Elt Ideal)) :
    Cert.KernelIdeal.HostValue.counts x1 = Cert.ReferenceIdeal.Read.val_main_v8 (F := Ideal) x1 := rfl

/-! ## Equal results -/

/-- From memories agreeing on the arguments both runs end with the result at `Cert.Mlp.out` of the same arrays. -/
theorem algebraic : Cert.algebraic_KernelIdeal_ReferenceIdeal := by
  intro m ρ m' ρ' _ hagree
  refine ⟨fun c => Cert.KernelIdeal.ArrValue.result m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq,
    (hagree c).1, (hagree c).2.1, (hagree c).2.2.1, (hagree c).2.2.2.1, (hagree c).2.2.2.2.1, (hagree c).2.2.2.2.2]
  show _ = Cert.KernelIdeal.ArrValue.result m c
  unfold Cert.KernelIdeal.ArrValue.result
  rw [sums_eq, counts_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
